-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1x1x1024 : Shape := ⟨3, ![1, 1, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1x1x1024 : S_.BroadcastsInDim S1x1x1024 (![] : Fin 0 → Fin S1x1x1024.rank)
  reducesTo_S1x1x1024_S_d0_1_2 : S1x1x1024.ReducesTo [0, 1, 2] S_

variable [Facts]

def fn {F : FTy → Type} [FloatOps F] (main_arg0 : FVec F S8x4096x1024 .f32) (main_arg1 : FVec F S1x1x1024 .f32) (main_arg2 : FVec F S1x1x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1x1x1024 .f32 := Host.absf main_arg1
  let main_cst_0 : FVec F S_ .f32 := constant S_ .f32 0x7F800000#32
  let main_v5 : FVec F S1x1x1024 .f32 := broadcastInDim S1x1x1024 ![] bcast_S_S1x1x1024 main_cst_0
  let main_v6 : IVec S1x1x1024 1 := cmpf .olt main_v4 main_v5
  let main_c_1 : IVec S_ 1 := constantI S_ 1 1#1
  let main_v7 : IVec S_ 1 := (fun x v => Host.reduce IntOp.andi x v reducesTo_S1x1x1024_S_d0_1_2 h_S_) main_v6 main_c_1
  let main_v8 : IVec S_ 1 := andi main_v3 main_v7
  let main_v9 : FVec F S1x1x1024 .f32 := Host.absf main_arg2
  let main_cst_2 : FVec F S_ .f32 := constant S_ .f32 0x7F800000#32
  let main_v10 : FVec F S1x1x1024 .f32 := broadcastInDim S1x1x1024 ![] bcast_S_S1x1x1024 main_cst_2
  let main_v11 : IVec S1x1x1024 1 := cmpf .olt main_v9 main_v10
  let main_c_3 : IVec S_ 1 := constantI S_ 1 1#1
  let main_v12 : IVec S_ 1 := (fun x v => Host.reduce IntOp.andi x v reducesTo_S1x1x1024_S_d0_1_2 h_S_) main_v11 main_c_3
  let main_v13 : IVec S_ 1 := andi main_v8 main_v12
  main_v13
-- ==== Kernel.lean ====
abbrev S8x4096x1024 : Shape := ⟨3, ![8, 4096, 1024]⟩
abbrev S1x1x1024 : Shape := ⟨3, ![1, 1, 1024]⟩
abbrev S32768x1024 : Shape := ⟨2, ![32768, 1024]⟩
abbrev S1x1024 : Shape := ⟨2, ![1, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1x1x1024, .f32⟩
  | .hbm, ⟨2, _⟩ => ⟨S1x1x1024, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S8x4096x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x1024_S32768x1024 : S8x4096x1024.ShapeCasts S32768x1024
  shapeCasts_S1x1x1024_S1x1024 : S1x1x1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S32768x1024_S8x4096x1024 : S32768x1024.ShapeCasts S8x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S32768x1024.size a
  hwx0_3 : ∀ i : grid0.Coords, EltTy.bits .f32 = 32 ∨ (Rect.block (s := S32768x1024) S2048x1024.size (cc0_transform_3 i) (hinb0_3 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1x1x1024 : Shape := ⟨3, ![1, 1, 1024]⟩
abbrev S8x4096x256x4 : Shape := ⟨4, ![8, 4096, 256, 4]⟩
abbrev S_ : Shape := ⟨0, ![]⟩
abbrev S4 : Shape := ⟨1, ![4]⟩
abbrev S1x1x1x4 : Shape := ⟨4, ![1, 1, 1, 4]⟩
abbrev S8x4096x256 : Shape := ⟨3, ![8, 4096, 256]⟩
abbrev S8x4096x256x1 : Shape := ⟨4, ![8, 4096, 256, 1]⟩
abbrev S1x1x256x4 : Shape := ⟨4, ![1, 1, 256, 4]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1x1024, .f32⟩
  | .hbm, ⟨2, _⟩ => ⟨S1x1x1024, .f32⟩
  | .hbm, ⟨3, _⟩ => ⟨S8x4096x256x4, .f32⟩
  | .hbm, ⟨4, _⟩ => ⟨S_, .f32⟩
  | .hbm, ⟨5, _⟩ => ⟨S8x4096x256x4, .f32⟩
  | .hbm, ⟨6, _⟩ => ⟨S8x4096x256x4, .i1⟩
  | .hbm, ⟨7, _⟩ => ⟨S8x4096x256x4, .i32⟩
  | .hbm, ⟨8, _⟩ => ⟨S4, .i32⟩
  | .hbm, ⟨9, _⟩ => ⟨S1x1x1x4, .i32⟩
  | .hbm, ⟨10, _⟩ => ⟨S8x4096x256x4, .i32⟩
  | .hbm, ⟨11, _⟩ => ⟨S8x4096x256x4, .i32⟩
  | .hbm, ⟨12, _⟩ => ⟨S_, .i32⟩
  | .hbm, ⟨13, _⟩ => ⟨S8x4096x256, .i32⟩
  | .hbm, ⟨14, _⟩ => ⟨S8x4096x256x1, .i32⟩
  | .hbm, ⟨15, _⟩ => ⟨S1x1x1x4, .i32⟩
  | .hbm, ⟨16, _⟩ => ⟨S8x4096x256x4, .i32⟩
  | .hbm, ⟨17, _⟩ => ⟨S8x4096x256x4, .i32⟩
  | .hbm, ⟨18, _⟩ => ⟨S8x4096x256x4, .i32⟩
  | .hbm, ⟨19, _⟩ => ⟨S_, .i32⟩
  | .hbm, ⟨20, _⟩ => ⟨S8x4096x256x4, .i32⟩
  | .hbm, ⟨21, _⟩ => ⟨S8x4096x256x4, .i32⟩
  | .hbm, ⟨22, _⟩ => ⟨S_, .i32⟩
  | .hbm, ⟨23, _⟩ => ⟨S8x4096x256x4, .i32⟩
  | .hbm, ⟨24, _⟩ => ⟨S8x4096x256x4, .i1⟩
  | .hbm, ⟨25, _⟩ => ⟨S8x4096x256x4, .i1⟩
  | .hbm, ⟨26, _⟩ => ⟨S1x1x256x4, .f32⟩
  | .hbm, ⟨27, _⟩ => ⟨S1x1x256x4, .f32⟩
  | .hbm, ⟨28, _⟩ => ⟨S8x4096x256x4, .f32⟩
  | .hbm, ⟨29, _⟩ => ⟨S8x4096x256x4, .f32⟩
  | .hbm, ⟨30, _⟩ => ⟨S8x4096x256x4, .f32⟩
  | .hbm, ⟨31, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  shapeCasts_S8x4096x1024_S8x4096x256x4 : S8x4096x1024.ShapeCasts S8x4096x256x4
  bcast_S_S8x4096x256x4 : S_.BroadcastsInDim S8x4096x256x4 (![] : Fin 0 → Fin S8x4096x256x4.rank)
  natLt_1_32 : 1 < 32
  bcast_S4_S1x1x1x4_3 : S4.BroadcastsInDim S1x1x1x4 (![3] : Fin 1 → Fin S1x1x1x4.rank)
  bcast_S1x1x1x4_S8x4096x256x4_0_1_2_3 : S1x1x1x4.BroadcastsInDim S8x4096x256x4 (![0, 1, 2, 3] : Fin 4 → Fin S8x4096x256x4.rank)
  reducesTo_S8x4096x256x4_S8x4096x256_d3 : S8x4096x256x4.ReducesTo [3] S8x4096x256
  h_S_ : 0 < S_.numel
  bcast_S8x4096x256_S8x4096x256x1_0_1_2 : S8x4096x256.BroadcastsInDim S8x4096x256x1 (![0, 1, 2] : Fin 3 → Fin S8x4096x256x1.rank)
  bcast_S8x4096x256x1_S8x4096x256x4_0_1_2_3 : S8x4096x256x1.BroadcastsInDim S8x4096x256x4 (![0, 1, 2, 3] : Fin 4 → Fin S8x4096x256x4.rank)
  shapeCasts_S1x1x1024_S1x1x256x4 : S1x1x1024.ShapeCasts S1x1x256x4
  bcast_S1x1x256x4_S8x4096x256x4_0_1_2_3 : S1x1x256x4.BroadcastsInDim S8x4096x256x4 (![0, 1, 2, 3] : Fin 4 → Fin S8x4096x256x4.rank)
  shapeCasts_S8x4096x256x4_S8x4096x1024 : S8x4096x256x4.ShapeCasts S8x4096x1024

variable [Facts₀]

class Facts : Prop extends Facts₀ where

variable [Facts]
-- ==== Proof.SignSelect.lean ====
/-
  The result both programs compute, as one function of the three argument arrays.

  For x : [8, 4096, 1024] and two embedding rows emb0, emb1 : [1, 1, 1024] the result at (b, t, c) is emb1 at
  channel c where x (b, t, c) > 0, and emb0 at channel c elsewhere (`pick`). The same function on the arrays with
  the two leading axes merged — x as 32768 rows of 1024 channels, an embedding as one row — is `pickRows`; the two
  are one function up to that regrouping of the axes (`pickRows_regrouped`): row b·4096 + t, channel c of the
  merged array is entry (b, t, c), and a row-major regrouping keeps every entry's position.
  Nothing here depends on what a float is: the comparison with zero and the choice are used as they stand.
-/
import Idealize.ShloMosaic.Lib.ValueIdx
import Idealize.ShloMosaic.Lib.Pipeline.Value

noncomputable section

namespace Cert.SignSelect

open Idealize.ShloMosaic Idealize.ShloMosaic.ValueIdx

variable {F : FTy → Type} [FloatOps F]

abbrev SX : Shape := ⟨3, ![8, 4096, 1024]⟩
abbrev SE : Shape := ⟨3, ![1, 1, 1024]⟩
abbrev SXrows : Shape := ⟨2, ![32768, 1024]⟩
abbrev SErow : Shape := ⟨2, ![1, 1024]⟩

/-- The result at (b, t, c): `emb1 c` where `x (b, t, c) > 0`, `emb0 c` elsewhere. -/
def pick (x : SX.Idx → F .f32) (e0 e1 : SE.Idx → F .f32) : SX.Idx → F .f32 := fun i =>
  Scalar.select (FloatOps.cmpf .ogt (x i) (FloatOps.ofBits .f32 0x00000000#32))
    (e1 (ix3 (0 : Fin 1) (0 : Fin 1) (⟨(i 2).val, (i 2).isLt⟩ : Fin 1024)))
    (e0 (ix3 (0 : Fin 1) (0 : Fin 1) (⟨(i 2).val, (i 2).isLt⟩ : Fin 1024)))

/-- The same on rows: at (r, c), `emb1 c` where `x (r, c) > 0`, `emb0 c` elsewhere. -/
def pickRows (x : SXrows.Idx → F .f32) (e0 e1 : SErow.Idx → F .f32) : SXrows.Idx → F .f32 := fun i =>
  Scalar.select (FloatOps.cmpf .ogt (x i) (FloatOps.ofBits .f32 0x00000000#32))
    (e1 (ix2 (0 : Fin 1) (⟨(i 1).val, (i 1).isLt⟩ : Fin 1024)))
    (e0 (ix2 (0 : Fin 1) (⟨(i 1).val, (i 1).isLt⟩ : Fin 1024)))

/-- Merging the two leading axes of the arguments, choosing row by row, and splitting the rows again is the choice
    on the arrays as they are: every entry keeps its row-major position through both regroupings. -/
theorem pickRows_regrouped (x : SX.Idx → F .f32) (e0 e1 : SE.Idx → F .f32)
    (hx : SX.ShapeCasts SXrows) (he : SE.ShapeCasts SErow) (hr : SXrows.ShapeCasts SX) :
    shapeCast SX (pickRows (shapeCast SXrows x hx) (shapeCast SErow e0 he) (shapeCast SErow e1 he)) hr
      = pick x e0 e1 := by
  funext i
  have h0 : (i 0).val < 8 := (i 0).isLt
  have h1 : (i 1).val < 4096 := (i 1).isLt
  have h2 : (i 2).val < 1024 := (i 2).isLt
  -- the row of (b, t, c) is b·4096 + t
  rw [shapeCast_apply _ hr i (ix2 (⟨(i 0).val * 4096 + (i 1).val, by omega⟩ : Fin 32768) (⟨(i 2).val, h2⟩ : Fin 1024))
    (by rw [Shape.rowMajor_val_two, Shape.rowMajor_val_three]; rfl)]
  unfold pickRows pick
  rw [shapeCast_apply x hx (ix2 (⟨(i 0).val * 4096 + (i 1).val, by omega⟩ : Fin 32768) (⟨(i 2).val, h2⟩ : Fin 1024)) i
      (by rw [Shape.rowMajor_val_two, Shape.rowMajor_val_three]; rfl),
    shapeCast_apply e0 he (ix2 (0 : Fin 1) (⟨(i 2).val, h2⟩ : Fin 1024)) (ix3 (0 : Fin 1) (0 : Fin 1) (⟨(i 2).val, h2⟩ : Fin 1024))
      (by rw [Shape.rowMajor_val_two, Shape.rowMajor_val_three]; rfl),
    shapeCast_apply e1 he (ix2 (0 : Fin 1) (⟨(i 2).val, h2⟩ : Fin 1024)) (ix3 (0 : Fin 1) (0 : Fin 1) (⟨(i 2).val, h2⟩ : Fin 1024))
      (by rw [Shape.rowMajor_val_two, Shape.rowMajor_val_three]; rfl)]

end Cert.SignSelect

end
-- ==== Proof.KernelRows.lean ====
/-
  The kernel, read at an entry.

  The kernel sees x as 32768 rows of 1024 channels and each embedding as one row. Grid point t holds rows
  2048·t … 2048·t + 2047 of x and both embedding rows whole, and writes back, at every entry of its block,
  the second embedding's channel where the entry of x is positive and the first embedding's channel elsewhere.
  So what point t writes back is block t of the row-wise choice `pickRows` of the arrays as the region finds them;
  the sixteen blocks tile the 32768 rows (row r lies in block r / 2048), hence the array the region leaves is
  `pickRows` of them. The host lines around the region merge the two leading axes of the arguments and split the
  rows of the result again, which turns the row-wise choice into the choice `pick` on the arguments as they are.
-/
import proofs.«150132_j84679575208362_2_alg».proof.Proof.Gen.KernelIdeal.Frame
import proofs.«150132_j84679575208362_2_alg».proof.Proof.SignSelect
import Idealize.ShloMosaic.Lib.Pipeline.Value
import Idealize.ShloMosaic.Lib.ValueIdx
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.SL.Sem
open Idealize.ShloMosaic.ValueIdx Cert.SignSelect
open Idealize.ShloMosaic.Pipeline (Dat)

variable {F : FTy → Type} [FloatOps F]

/-! ## The body's stored value at an entry -/

/-- Entry (p, q) of what the body stores: the second row's channel q where entry (p, q) of the block of x is
    positive, the first row's channel q elsewhere. -/
theorem stored_apply (x0 : Vec F S2048x1024 .f32) (x1 x2 : Vec F S1x1024 .f32) (p : Fin 2048) (q : Fin 1024) :
    k0_pay1 x0 x1 x2 (ix2 p q)
      = Scalar.select (FloatOps.cmpf .ogt (x0 (ix2 p q)) (FloatOps.ofBits .f32 0x00000000#32))
          (x2 (ix2 (0 : Fin 1) q)) (x1 (ix2 (0 : Fin 1) q)) := by
  unfold k0_pay1
  simp only [shapeCast_self]
  rw [select_apply, cmpf_apply, broadcast_apply,
    broadcastTo_apply x2 broadcasts_S1x1024_S2048x1024 (ix2 p q) (ix2 (0 : Fin 1) q) (fun a => match a with
      | ⟨0, _⟩ => by show 0 = if (1 : Nat) = 1 then 0 else p.val; rw [if_pos rfl]
      | ⟨1, _⟩ => by show q.val = if (1024 : Nat) = 1 then 0 else q.val; rw [if_neg (by decide)]),
    broadcastTo_apply x1 broadcasts_S1x1024_S2048x1024 (ix2 p q) (ix2 (0 : Fin 1) q) (fun a => match a with
      | ⟨0, _⟩ => by show 0 = if (1 : Nat) = 1 then 0 else p.val; rw [if_pos rfl]
      | ⟨1, _⟩ => by show q.val = if (1024 : Nat) = 1 then 0 else q.val; rw [if_neg (by decide)])]

/-! ## What a grid point writes back -/

variable (m : (ℓ : Loc nD τ sig) → Buf (Elt F) ℓ) (ρ : Dev nD → PrngReg)

theorem zero_offsets : (![0, 0] : Fin 2 → Nat) = fun _ => 0 := funext fun a => by fin_cases a <;> rfl

/-- The block of each window at point `t`: the block of x and the output block are block row `t`; the embedding
    rows are whole at every point. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of the row-wise choice of the arrays as the region finds them. -/
theorem flushed_eq (c : Dev nD) (t : Fin cfg0.N) :
    (dats m 0 c).flushed 3 t
      = ((cfg0.win 3).blk t).view.read (Elt F) (pickRows (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S2048x1024) zero_offsets, View.ld_unit_zero (S := S1x1024) zero_offsets]
  obtain ⟨e0, e1, e2, e3, e4, e5, e6, e7⟩ := block_indices t
  funext j
  obtain ⟨p, q, rfl⟩ : ∃ (p : Fin 2048) (q : Fin 1024), j = ix2 p q := ⟨j 0, j 1, eq_ix2 j⟩
  show k0_pay1 (iblk m c 0 t) (iblk m c 1 t) (iblk m c 2 t) (ix2 p q) = _
  refine (stored_apply (iblk m c 0 t) (iblk m c 1 t) (iblk m c 2 t) p q).trans ?_
  unfold pickRows
  show Scalar.select (FloatOps.cmpf .ogt (V m c main_v0 (((cfg0.win 0).blk t).view.emb (ix2 p q))) (FloatOps.ofBits .f32 0x00000000#32))
        (V m c main_v2 (((cfg0.win 2).blk t).view.emb (ix2 (0 : Fin 1) q)))
        (V m c main_v1 (((cfg0.win 1).blk t).view.emb (ix2 (0 : Fin 1) q)))
      = Scalar.select (FloatOps.cmpf .ogt (V m c main_v0 (((cfg0.win 3).blk t).view.emb (ix2 p q))) (FloatOps.ofBits .f32 0x00000000#32))
        (V m c main_v2 (ix2 (0 : Fin 1) (⟨((((cfg0.win 3).blk t).view.emb (ix2 p q)) 1).val, ((((cfg0.win 3).blk t).view.emb (ix2 p q)) 1).isLt⟩ : Fin 1024)))
        (V m c main_v1 (ix2 (0 : Fin 1) (⟨((((cfg0.win 3).blk t).view.emb (ix2 p q)) 1).val, ((((cfg0.win 3).blk t).view.emb (ix2 p q)) 1).isLt⟩ : Fin 1024)))
  have hp : p.val < 2048 := p.isLt
  have hq : q.val < 1024 := q.isLt
  have h0 : ((cfg0.win 0).blk t).view.emb (ix2 p q) = ((cfg0.win 3).blk t).view.emb (ix2 p q) := by
    funext a; apply Fin.ext
    match a with
    | ⟨0, _⟩ => show win0_0.index t (0 : Fin 2) * 2048 + 1 * p.val = win0_3.index t (0 : Fin 2) * 2048 + 1 * p.val; omega
    | ⟨1, _⟩ => show win0_0.index t (1 : Fin 2) * 1024 + 1 * q.val = win0_3.index t (1 : Fin 2) * 1024 + 1 * q.val; omega
  have h1 : ((cfg0.win 1).blk t).view.emb (ix2 (0 : Fin 1) q)
      = ix2 (0 : Fin 1) (⟨((((cfg0.win 3).blk t).view.emb (ix2 p q)) 1).val, ((((cfg0.win 3).blk t).view.emb (ix2 p q)) 1).isLt⟩ : Fin 1024) := by
    funext a; apply Fin.ext
    match a with
    | ⟨0, _⟩ => show win0_1.index t (0 : Fin 2) * 1 + 1 * 0 = 0; omega
    | ⟨1, _⟩ => show win0_1.index t (1 : Fin 2) * 1024 + 1 * q.val = win0_3.index t (1 : Fin 2) * 1024 + 1 * q.val; omega
  have h2 : ((cfg0.win 2).blk t).view.emb (ix2 (0 : Fin 1) q)
      = ix2 (0 : Fin 1) (⟨((((cfg0.win 3).blk t).view.emb (ix2 p q)) 1).val, ((((cfg0.win 3).blk t).view.emb (ix2 p q)) 1).isLt⟩ : Fin 1024) := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  rw [h0, h1, h2]

/-! ## The blocks tile the rows -/

/-- An entry of the array is in point `t`'s block iff each coordinate is in the block's range on its axis. -/
theorem mem_block (t : Fin cfg0.N) (i : S32768x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v3).slice (win0_3.rect t)).set ↔ _
  rw [View.set_slice_whole, Rect.mem_set_unit]
  exact Iff.rfl

/-- Row r lies in the block of point r / 2048. -/
theorem rows_covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : grid0.N = 16 := N_0
  have ht : (i 0).val / 2048 < grid0.N := by rw [hN]; omega
  obtain ⟨e0, e1, e2, e3, e4, e5, e6, e7⟩ := block_indices ⟨(i 0).val / 2048, ht⟩
  refine ⟨⟨(i 0).val / 2048, ht⟩, flush0_3 _, ?_⟩
  rw [mem_block]
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    rw [e6]
    show (i 0).val / 2048 * 2048 ≤ (i 0).val ∧ (i 0).val < (i 0).val / 2048 * 2048 + 2048
    omega
  | ⟨1, _⟩ =>
    show win0_3.index ⟨(i 0).val / 2048, ht⟩ (1 : Fin 2) * 1024 ≤ (i 1).val ∧ (i 1).val < win0_3.index ⟨(i 0).val / 2048, ht⟩ (1 : Fin 2) * 1024 + 1024
    rw [e7]
    omega

/-- The array the region leaves is the row-wise choice of the arrays as the region finds them. -/
theorem region_result (c : Dev nD) :
    (dats m 0 c).arrAt 3 cfg0.N = pickRows (V m c main_v0) (V m c main_v1) (V m c main_v2) :=
  (dats m 0 c).arrAt_eq_of_cover 3 _ (fun t _ => flushed_eq m c t) rows_covered

/-! ## The host lines around the region -/

/-- The region finds x with its two leading axes merged, -/
theorem found_x (c : Dev nD) :
    (V m c main_v0 : S32768x1024.Idx → Elt F .f32)
      = shapeCast S32768x1024 (m ((c : Thread nD τ).loc main_arg0)) shapeCasts_S8x4096x1024_S32768x1024 := by
  show StableHlo.after hostOps0 (fun b => m (c, b)) (Proc.devRef .tc main_v0) = _
  after_results
  rfl
/-- the first embedding as one row, -/
theorem found_emb0 (c : Dev nD) :
    (V m c main_v1 : S1x1024.Idx → Elt F .f32)
      = shapeCast S1x1024 (m ((c : Thread nD τ).loc main_arg1)) shapeCasts_S1x1x1024_S1x1024 := by
  show StableHlo.after hostOps0 (fun b => m (c, b)) (Proc.devRef .tc main_v1) = _
  after_results
  rfl
/-- and the second embedding as one row. -/
theorem found_emb1 (c : Dev nD) :
    (V m c main_v2 : S1x1024.Idx → Elt F .f32)
      = shapeCast S1x1024 (m ((c : Thread nD τ).loc main_arg2)) shapeCasts_S1x1x1024_S1x1024 := by
  show StableHlo.after hostOps0 (fun b => m (c, b)) (Proc.devRef .tc main_v2) = _
  after_results
  rfl

/-- The line after the region splits the rows of what the region left. -/
theorem tail_result (c : Dev nD) :
    Pipeline.afterTail₀ cfgs (dats m) 0 (V0 m) [hostOps1] c main_v4
      = shapeCast S8x4096x1024 ((dats m 0 c).arrAt 3 cfg0.N) shapeCasts_S32768x1024_S8x4096x1024 := by
  unfold Pipeline.afterTail₀
  show StableHlo.after hostOps1 _ (Proc.devRef .tc main_v4) = _
  after_results
  rw [Pipeline.withArrays_arr spec0 launch0.win.arr_inj c _ _ 3]
  rfl

/-- The program's result is the choice on the arguments as they are. -/
theorem result_eq_pick (c : Dev nD) :
    Pipeline.afterTail₀ cfgs (dats m) 0 (V0 m) [hostOps1] c main_v4
      = pick (m ((c : Thread nD τ).loc main_arg0)) (m ((c : Thread nD τ).loc main_arg1)) (m ((c : Thread nD τ).loc main_arg2)) := by
  rw [tail_result, region_result, found_x, found_emb0, found_emb1]
  exact pickRows_regrouped _ _ _ _ _ _

/-! ## The run -/

/-- Every weakly fair execution of the kernel's program terminates with its result at `pick` of the argument arrays
    and the argument arrays unchanged. -/
theorem run : θ_run defs (onTc (τ := τ) (main (F := F))) ⟨m, fun _ => 0, ρ⟩ fun r => ∀ c : Dev nD,
      r.2.mem ((c.tc : Thread nD τ).loc main_v4)
        = pick (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq_pick m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Rows

end
-- ==== Proof.LibNibblePack.lean ====
/-
  Four one-bit words packed into a nibble and unpacked again.

  Zero-extend four bits b0 … b3 to 32-bit words, shift bit k left by k and add the four words up from zero: the
  sum is the number b0 + 2·b1 + 4·b2 + 8·b3 < 16, so nothing is carried out of a position and nothing wraps.
  Shifting that number right by j (arithmetically: the number is non-negative, so the sign plays no part), masking
  with 1 and comparing with zero gives bit j back. With four bits and four positions the statement is a finite
  table of 64 rows, and it is proved by going through them.
-/
import Idealize.ShloMosaic.PureOps.Reduce

namespace Idealize.ShloMosaic.NibblePack

/-- A commutative and associative fold over the four positions, written out. -/
theorem fold_univ_fin4 {α : Type} (f : α → α → α) [Std.Commutative f] [Std.Associative f] (b : α) (g : Fin 4 → α) :
    (Finset.univ : Finset (Fin 4)).fold f b g = f (g 0) (f (g 1) (f (g 2) (f (g 3) b))) := by
  simp only [Fin.univ_succ, Finset.fold_cons, Finset.fold_map, Finset.univ_unique, Finset.fold_singleton]
  rfl

/-- The nibble of four bits: bit `k` zero-extended, shifted left by `k`, the four summed up from zero. -/
def pack (b : Fin 4 → BitVec 1) : BitVec 32 :=
  (Finset.univ : Finset (Fin 4)).fold IntOp.addi 0#32
    (fun k => IntOp.shli .host ((b k).setWidth 32) (BitVec.ofNat 32 k.val))

/-- Bit `j` of a word as a one-bit word: shift right by `j`, mask with one, compare with zero. -/
def unpack (tok : BitVec 32) (j : Fin 4) : BitVec 1 :=
  IntOp.cmpi .ne (IntOp.andi (IntOp.shrsi .host tok (BitVec.ofNat 32 j.val)) 1#32) 0#32

/-- The table, over four named bits. -/
theorem unpack_pack_bits (b0 b1 b2 b3 : BitVec 1) (j : Fin 4) :
    unpack (IntOp.addi (IntOp.shli .host (b0.setWidth 32) (BitVec.ofNat 32 0))
        (IntOp.addi (IntOp.shli .host (b1.setWidth 32) (BitVec.ofNat 32 1))
          (IntOp.addi (IntOp.shli .host (b2.setWidth 32) (BitVec.ofNat 32 2))
            (IntOp.addi (IntOp.shli .host (b3.setWidth 32) (BitVec.ofNat 32 3)) 0#32)))) j
      = ![b0, b1, b2, b3] j := by
  unfold unpack
  rcases BitVec.eq_zero_or_eq_one b0 with rfl | rfl <;> rcases BitVec.eq_zero_or_eq_one b1 with rfl | rfl <;>
  rcases BitVec.eq_zero_or_eq_one b2 with rfl | rfl <;> rcases BitVec.eq_zero_or_eq_one b3 with rfl | rfl <;>
  fin_cases j <;> decide

/-- Unpacking position `j` of the packed nibble gives bit `j` back. -/
theorem unpack_pack (b : Fin 4 → BitVec 1) (j : Fin 4) : unpack (pack b) j = b j := by
  unfold pack
  rw [fold_univ_fin4]
  have h := unpack_pack_bits (b 0) (b 1) (b 2) (b 3) j
  refine h.trans ?_
  fin_cases j <;> rfl

end Idealize.ShloMosaic.NibblePack
-- ==== Proof.RefUnpacked.lean ====
/-
  The reference, read at an entry.

  The reference regroups the 1024 channels as 256 groups of 4, turns each entry's comparison `x > 0` into a 0/1
  word, packs the four words of a group into one nibble (bit k shifted left by k, the four summed), unpacks the
  nibble again (shift right by the position, mask with one, compare with zero) and chooses between the two
  embeddings by the unpacked bit. Unpacking position j of the packed nibble gives bit j back, so the bit that decides
  entry (b, t, 4g + j) is that entry's own comparison, and the reference is the plain choice `pick`.
-/
import proofs.«150132_j84679575208362_2_alg».proof.Proof.ReferenceRead
import proofs.«150132_j84679575208362_2_alg».proof.Proof.SignSelect
import proofs.«150132_j84679575208362_2_alg».proof.Proof.LibNibblePack
import Idealize.ShloMosaic.Lib.ValueIdx

noncomputable section

namespace Cert.ReferenceIdeal.Unpacked

open Cert.ReferenceIdeal Cert.ReferenceIdeal.Gen Cert.ReferenceIdeal.ReadP Idealize.ShloMosaic Idealize.ShloMosaic.ValueIdx
open Idealize.ShloMosaic.NibblePack Cert.SignSelect

variable {F : FTy → Type} [FloatOps F]

/-- Dropping the last axis of [8, 4096, 256, 4]. -/
theorem hred : S8x4096x256x4.Reduces [3] S8x4096x256 := by decide

/-- Group (b, t, g) with position k put back is entry (b, t, g, k). -/
theorem lift_group (b : Fin 8) (tt : Fin 4096) (g : Fin 256) (k : Fin (S8x4096x256x4.size 3)) :
    hred.lift (ix3 b tt g) k = ix4 b tt g (⟨k.val, k.isLt⟩ : Fin 4) := by
  funext a; apply Fin.ext
  fin_cases a <;> rfl

/-- The comparison bits of group (b, t, g): position k is `x (b, t, 4g + k) > 0`. -/
def groupBits (x0 : S8x4096x1024.Idx → Elt F .f32) (b : Fin 8) (tt : Fin 4096) (g : Fin 256) : Fin 4 → BitVec 1 := fun k =>
  FloatOps.cmpf .ogt (x0 (ix3 b tt (⟨g.val * 4 + k.val, by have := g.isLt; have := k.isLt; omega⟩ : Fin 1024))) (FloatOps.ofBits .f32 0x00000000#32)

/-- Entry (b, t, g, k) of the regrouped argument is entry (b, t, 4g + k). -/
theorem regrouped_x (x0 : S8x4096x1024.Idx → Elt F .f32) (b : Fin 8) (tt : Fin 4096) (g : Fin 256) (k : Fin 4) :
    val_main_v0 (F := F) x0 (ix4 b tt g k) = x0 (ix3 b tt (⟨g.val * 4 + k.val, by have := g.isLt; have := k.isLt; omega⟩ : Fin 1024)) := by
  unfold val_main_v0
  refine shapeCast_apply x0 shapeCasts_S8x4096x1024_S8x4096x256x4 (ix4 b tt g k) _ ?_
  rw [Shape.rowMajor_val_three, Shape.rowMajor_val_four]
  have hb := b.isLt; have ht := tt.isLt; have hg := g.isLt; have hk := k.isLt
  show (b.val * 4096 + tt.val) * 1024 + (g.val * 4 + k.val) = ((b.val * 4096 + tt.val) * 256 + g.val) * 4 + k.val
  omega

/-- The shifted word of entry (b, t, g, k): its comparison bit, zero-extended, shifted left by k. -/
theorem shifted_word (x0 : S8x4096x1024.Idx → Elt F .f32) (b : Fin 8) (tt : Fin 4096) (g : Fin 256) (k : Fin 4) :
    val_main_v7 (F := F) x0 (ix4 b tt g k)
      = IntOp.shli .host ((groupBits x0 b tt g k).setWidth 32) (BitVec.ofNat 32 k.val) := by
  rw [val_main_v7_apply, val_main_v3_apply, val_main_v2_apply, regrouped_x, val_main_v1_apply, val_main_cst_apply,
    val_main_v6_apply, val_main_v5_apply, val_main_v4_apply]
  rfl

/-- The token of group (b, t, g) is the packed nibble of the group's comparison bits. -/
theorem token (x0 : S8x4096x1024.Idx → Elt F .f32) (b : Fin 8) (tt : Fin 4096) (g : Fin 256) :
    val_main_v8 (F := F) x0 (ix3 b tt g) = pack (groupBits x0 b tt g) := by
  unfold val_main_v8
  rw [Host.reduce_eq_fold_single IntOp.addi (val_main_v7 (F := F) x0) (val_main_c (F := F))
    reducesTo_S8x4096x256x4_S8x4096x256_d3 hred h_S_ (ix3 b tt g)]
  unfold pack
  have hf : (val_main_v7 (F := F) x0 ∘ hred.lift (ix3 b tt g))
      = fun k : Fin 4 => IntOp.shli .host ((groupBits x0 b tt g k).setWidth 32) (BitVec.ofNat 32 k.val) :=
    funext fun k => by
      show val_main_v7 (F := F) x0 (hred.lift (ix3 b tt g) k) = _
      rw [lift_group, shifted_word]
      rfl
  exact congrArg (fun f => Finset.fold IntOp.addi (0#32 : BitVec 32) f (Finset.univ : Finset (Fin 4))) hf

/-- The unpacked bit of entry (b, t, g, j) is that entry's own comparison. -/
theorem unpacked_bit (x0 : S8x4096x1024.Idx → Elt F .f32) (b : Fin 8) (tt : Fin 4096) (g : Fin 256) (j : Fin 4) :
    val_main_v18 (F := F) x0 (ix4 b tt g j) = groupBits x0 b tt g j := by
  rw [val_main_v18_apply, val_main_v17_apply, val_main_v15_apply, val_main_v13_apply, val_main_v11_apply,
    val_main_v9_apply, val_main_v14_apply, val_main_c_0_apply, val_main_v16_apply, val_main_c_1_apply,
    val_main_v12_apply, val_main_v10_apply, val_main_v4_apply]
  have hJ : idx_main_v9 (idx_main_v11 (ix4 b tt g j)) = ix3 b tt g := by
    funext a; apply Fin.ext
    fin_cases a <;> rfl
  rw [hJ, token]
  exact unpack_pack (groupBits x0 b tt g) j

/-- Entry (0, 0, g, j) of a regrouped embedding is its channel 4g + j. -/
theorem regrouped_emb (e : S1x1x1024.Idx → Elt F .f32) (g : Fin 256) (j : Fin 4) :
    shapeCast S1x1x256x4 e shapeCasts_S1x1x1024_S1x1x256x4 (ix4 (0 : Fin 1) (0 : Fin 1) g j)
      = e (ix3 (0 : Fin 1) (0 : Fin 1) (⟨g.val * 4 + j.val, by have := g.isLt; have := j.isLt; omega⟩ : Fin 1024)) := by
  refine shapeCast_apply e shapeCasts_S1x1x1024_S1x1x256x4 (ix4 (0 : Fin 1) (0 : Fin 1) g j) _ ?_
  rw [Shape.rowMajor_val_three, Shape.rowMajor_val_four]
  have hg := g.isLt; have hj := j.isLt
  show (0 * 1 + 0) * 1024 + (g.val * 4 + j.val) = ((0 * 1 + 0) * 256 + g.val) * 4 + j.val
  omega

/-- The reference before its last regrouping, at (b, t, g, j): the choice by the entry's own comparison. -/
theorem chosen (x0 : S8x4096x1024.Idx → Elt F .f32) (x1 x2 : S1x1x1024.Idx → Elt F .f32)
    (b : Fin 8) (tt : Fin 4096) (g : Fin 256) (j : Fin 4) :
    val_main_v21 (F := F) x0 x1 x2 (ix4 b tt g j)
      = Scalar.select (groupBits x0 b tt g j)
          (x2 (ix3 (0 : Fin 1) (0 : Fin 1) (⟨g.val * 4 + j.val, by have := g.isLt; have := j.isLt; omega⟩ : Fin 1024)))
          (x1 (ix3 (0 : Fin 1) (0 : Fin 1) (⟨g.val * 4 + j.val, by have := g.isLt; have := j.isLt; omega⟩ : Fin 1024))) := by
  rw [val_main_v21_apply, unpacked_bit, val_main_call0_v0_apply, val_main_call0_v1_apply]
  have hI : idx_main_call0_v0 (ix4 b tt g j) = ix4 (0 : Fin 1) (0 : Fin 1) g j := by
    funext a; apply Fin.ext
    fin_cases a <;> rfl
  have hI' : idx_main_call0_v1 (ix4 b tt g j) = ix4 (0 : Fin 1) (0 : Fin 1) g j := by
    funext a; apply Fin.ext
    fin_cases a <;> rfl
  rw [hI, hI']
  unfold val_main_v20 val_main_v19
  rw [regrouped_emb, regrouped_emb]

/-- The reference's result is the plain choice. -/
theorem result_eq_pick (x0 : S8x4096x1024.Idx → Elt F .f32) (x1 x2 : S1x1x1024.Idx → Elt F .f32) :
    val_main_v22 (F := F) x0 x1 x2 = pick x0 x1 x2 := by
  funext i
  have h0 : (i 0).val < 8 := (i 0).isLt
  have h1 : (i 1).val < 4096 := (i 1).isLt
  have h2 : (i 2).val < 1024 := (i 2).isLt
  unfold val_main_v22
  rw [shapeCast_apply (val_main_v21 (F := F) x0 x1 x2) shapeCasts_S8x4096x256x4_S8x4096x1024 i
    (ix4 (⟨(i 0).val, h0⟩ : Fin 8) (⟨(i 1).val, h1⟩ : Fin 4096) (⟨(i 2).val / 4, by omega⟩ : Fin 256) (⟨(i 2).val % 4, by omega⟩ : Fin 4))
    (by rw [Shape.rowMajor_val_four, Shape.rowMajor_val_three]
        show (((i 0).val * 4096 + (i 1).val) * 256 + (i 2).val / 4) * 4 + (i 2).val % 4 = ((i 0).val * 4096 + (i 1).val) * 1024 + (i 2).val
        omega)]
  rw [chosen]
  unfold pick groupBits
  have hc : (⟨(i 2).val / 4 * 4 + (i 2).val % 4, by omega⟩ : Fin 1024) = ⟨(i 2).val, h2⟩ := Fin.ext (by show (i 2).val / 4 * 4 + (i 2).val % 4 = (i 2).val; omega)
  have hi : ix3 (⟨(i 0).val, h0⟩ : Fin 8) (⟨(i 1).val, h1⟩ : Fin 4096) (⟨(i 2).val, h2⟩ : Fin 1024) = i := by
    funext a; apply Fin.ext
    fin_cases a <;> rfl
  simp only [hc, hi]

end Cert.ReferenceIdeal.Unpacked

end
-- ==== Proof.lean ====
/-
  The kernel's program and its reference compute one function.

  Both take x : [8, 4096, 1024] and two embedding rows emb0, emb1 : [1, 1, 1024] and return, at (b, t, c),
  emb1's channel c where x (b, t, c) > 0 and emb0's channel c elsewhere (`Cert.SignSelect.pick`).
  The kernel does so directly, on x seen as 32768 rows in sixteen blocks of 2048 rows (Proof/KernelRows.lean).
  The reference goes round: it packs the comparison bits of each group of four channels into a nibble and unpacks
  the nibble again before choosing; unpacking returns each bit as it was packed (Proof/LibNibblePack.lean), so the
  bit that decides an entry is the entry's own comparison (Proof/RefUnpacked.lean).
  The comparison with zero and the choice are the same operations on both sides and are never opened, so the
  equality holds whatever the inputs are: the finiteness of the inputs is not used.
  The idealized kernel is the kernel's own text (no operation was rewritten), and the three programs' argument
  arrays end as they were launched.
-/
import proofs.«150132_j84679575208362_2_alg».proof.Defs
import proofs.«150132_j84679575208362_2_alg».proof.Proof.Gen.Kernel
import proofs.«150132_j84679575208362_2_alg».proof.Proof.Gen.Kernel.Skeleton
import proofs.«150132_j84679575208362_2_alg».proof.Proof.Gen.Kernel.Launch
import proofs.«150132_j84679575208362_2_alg».proof.Proof.Gen.Kernel.Points
import proofs.«150132_j84679575208362_2_alg».proof.Proof.Gen.Kernel.Frame
import proofs.«150132_j84679575208362_2_alg».proof.Proof.Gen.KernelIdeal
import proofs.«150132_j84679575208362_2_alg».proof.Proof.Gen.KernelIdeal.Skeleton
import proofs.«150132_j84679575208362_2_alg».proof.Proof.Gen.KernelIdeal.Launch
import proofs.«150132_j84679575208362_2_alg».proof.Proof.Gen.KernelIdeal.Points
import proofs.«150132_j84679575208362_2_alg».proof.Proof.Gen.KernelIdeal.Frame
import proofs.«150132_j84679575208362_2_alg».proof.Proof.Gen.ReferenceIdeal
import proofs.«150132_j84679575208362_2_alg».proof.Proof.Gen.Pre_finite_inputs
import proofs.«150132_j84679575208362_2_alg».proof.Proof.ReferenceRun
import proofs.«150132_j84679575208362_2_alg».proof.Proof.ReferenceRead
import proofs.«150132_j84679575208362_2_alg».proof.Proof.KernelRows
import proofs.«150132_j84679575208362_2_alg».proof.Proof.RefUnpacked
import Idealize.ShloMosaic.Adequacy
import Idealize.ShloMosaic.Init

noncomputable section

namespace Cert.Proof

open Idealize.ShloMosaic Idealize.SL.Sem

/-- The kernel's program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the kernel was rewritten for the idealization. -/
theorem preserves : Cert.preserves_Kernel_KernelIdeal := trivial

/-- Both idealized programs end with `pick` of the (agreeing) argument arrays. -/
theorem algebraic : Cert.algebraic_KernelIdeal_ReferenceIdeal := by
  intro m ρ m' ρ' _ hagree
  refine ⟨_, Cert.KernelIdeal.Rows.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v22_eq, Cert.ReferenceIdeal.Unpacked.result_eq_pick,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
